-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x7 : Shape := ⟨2, ![128, 7]⟩
abbrev S7 : Shape := ⟨1, ![7]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S7 .f32) (main_arg12 : FVec F S7 .f32) (main_arg13 : FVec F S7 .f32) (main_v48 : IVec S_ 1) (main_v49 : FVec F S7 .f32) (main_v50 : FVec F S7 .f32) : IVec S_ 1 :=
  let main_v51 : IVec S7 1 := cmpf .olt main_v49 main_v50
  let main_c_19 : IVec S_ 1 := constantI S_ 1 1#1
  let main_v52 : IVec S_ 1 := (fun x v => Host.reduce IntOp.andi x v reducesTo_S7_S_d0 h_S_) main_v51 main_c_19
  let main_v53 : IVec S_ 1 := andi main_v48 main_v52
  let main_v54 : FVec F S7 .f32 := Host.absf main_arg11
  let main_cst_20 : FVec F S_ .f32 := constant S_ .f32 0x7F800000#32
  let main_v55 : FVec F S7 .f32 := broadcastInDim S7 ![] bcast_S_S7 main_cst_20
  let main_v56 : IVec S7 1 := cmpf .olt main_v54 main_v55
  let main_c_21 : IVec S_ 1 := constantI S_ 1 1#1
  let main_v57 : IVec S_ 1 := (fun x v => Host.reduce IntOp.andi x v reducesTo_S7_S_d0 h_S_) main_v56 main_c_21
  let main_v58 : IVec S_ 1 := andi main_v53 main_v57
  let main_v59 : FVec F S7 .f32 := Host.absf main_arg12
  let main_cst_22 : FVec F S_ .f32 := constant S_ .f32 0x7F800000#32
  let main_v60 : FVec F S7 .f32 := broadcastInDim S7 ![] bcast_S_S7 main_cst_22
  let main_v61 : IVec S7 1 := cmpf .olt main_v59 main_v60
  let main_c_23 : IVec S_ 1 := constantI S_ 1 1#1
  let main_v62 : IVec S_ 1 := (fun x v => Host.reduce IntOp.andi x v reducesTo_S7_S_d0 h_S_) main_v61 main_c_23
  let main_v63 : IVec S_ 1 := andi main_v58 main_v62
  let main_v64 : FVec F S7 .f32 := Host.absf main_arg13
  let main_cst_24 : FVec F S_ .f32 := constant S_ .f32 0x7F800000#32
  let main_v65 : FVec F S7 .f32 := broadcastInDim S7 ![] bcast_S_S7 main_cst_24
  let main_v66 : IVec S7 1 := cmpf .olt main_v64 main_v65
  let main_c_25 : IVec S_ 1 := constantI S_ 1 1#1
  let main_v67 : IVec S_ 1 := (fun x v => Host.reduce IntOp.andi x v reducesTo_S7_S_d0 h_S_) main_v66 main_c_25
  fn_part4 (F := F) main_v63 main_v67

def fn_part2 {F : FTy → Type} [FloatOps F] (main_arg7 : FVec F S128 .f32) (main_arg8 : FVec F S128x7 .f32) (main_arg9 : FVec F S7 .f32) (main_arg10 : FVec F S7 .f32) (main_arg11 : FVec F S7 .f32) (main_arg12 : FVec F S7 .f32) (main_arg13 : FVec F S7 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x7 .f32 := Host.absf main_arg8
  let main_cst_14 : FVec F S_ .f32 := constant S_ .f32 0x7F800000#32
  let main_v40 : FVec F S128x7 .f32 := broadcastInDim S128x7 ![] bcast_S_S128x7 main_cst_14
  let main_v41 : IVec S128x7 1 := cmpf .olt main_v39 main_v40
  let main_c_15 : IVec S_ 1 := constantI S_ 1 1#1
  let main_v42 : IVec S_ 1 := (fun x v => Host.reduce IntOp.andi x v reducesTo_S128x7_S_d0_1 h_S_) main_v41 main_c_15
  let main_v43 : IVec S_ 1 := andi main_v38 main_v42
  let main_v44 : FVec F S7 .f32 := Host.absf main_arg9
  let main_cst_16 : FVec F S_ .f32 := constant S_ .f32 0x7F800000#32
  let main_v45 : FVec F S7 .f32 := broadcastInDim S7 ![] bcast_S_S7 main_cst_16
  let main_v46 : IVec S7 1 := cmpf .olt main_v44 main_v45
  let main_c_17 : IVec S_ 1 := constantI S_ 1 1#1
  let main_v47 : IVec S_ 1 := (fun x v => Host.reduce IntOp.andi x v reducesTo_S7_S_d0 h_S_) main_v46 main_c_17
  let main_v48 : IVec S_ 1 := andi main_v43 main_v47
  let main_v49 : FVec F S7 .f32 := Host.absf main_arg10
  let main_cst_18 : FVec F S_ .f32 := constant S_ .f32 0x7F800000#32
  let main_v50 : FVec F S7 .f32 := broadcastInDim S7 ![] bcast_S_S7 main_cst_18
  fn_part3 (F := F) main_arg11 main_arg12 main_arg13 main_v48 main_v49 main_v50

def fn_part1 {F : FTy → Type} [FloatOps F] (main_arg4 : FVec F S128 .f32) (main_arg5 : FVec F S128 .f32) (main_arg6 : FVec F S128 .f32) (main_arg7 : FVec F S128 .f32) (main_arg8 : FVec F S128x7 .f32) (main_arg9 : FVec F S7 .f32) (main_arg10 : FVec F S7 .f32) (main_arg11 : FVec F S7 .f32) (main_arg12 : FVec F S7 .f32) (main_arg13 : FVec F S7 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x128 .f32) (main_arg1 : FVec F S1600000 .f32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x7 .f32) (main_arg9 : FVec F S7 .f32) (main_arg10 : FVec F S7 .f32) (main_arg11 : FVec F S7 .f32) (main_arg12 : FVec F S7 .f32) (main_arg13 : FVec F S7 .f32) (main_arg14 : IVec S1600000 32) (main_arg15 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x7 : Shape := ⟨2, ![128, 7]⟩
abbrev S7 : Shape := ⟨1, ![7]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x7 : Shape := ⟨2, ![1, 7]⟩
abbrev S100000x7 : Shape := ⟨2, ![100000, 7]⟩
abbrev S5000x7 : Shape := ⟨2, ![5000, 7]⟩

abbrev nBuf : Space → Nat
  | .hbm => 60
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x7, .f32⟩
  | .hbm, ⟨9, _⟩ => ⟨S7, .f32⟩
  | .hbm, ⟨10, _⟩ => ⟨S7, .f32⟩
  | .hbm, ⟨11, _⟩ => ⟨S7, .f32⟩
  | .hbm, ⟨12, _⟩ => ⟨S7, .f32⟩
  | .hbm, ⟨13, _⟩ => ⟨S7, .f32⟩
  | .hbm, ⟨14, _⟩ => ⟨S1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x1, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S1600000x1, .f32⟩
  | .hbm, ⟨48, _⟩ => ⟨S1600000x128, .f32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S1x7, .f32⟩
  | .hbm, ⟨55, _⟩ => ⟨S1x7, .f32⟩
  | .hbm, ⟨56, _⟩ => ⟨S1x7, .f32⟩
  | .hbm, ⟨57, _⟩ => ⟨S1x7, .f32⟩
  | .hbm, ⟨58, _⟩ => ⟨S1x7, .f32⟩
  | .hbm, ⟨59, _⟩ => ⟨S100000x7, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x7, .f32⟩
  | .local _ .vmem, ⟨13, _⟩ => ⟨S1x7, .f32⟩
  | .local _ .vmem, ⟨14, _⟩ => ⟨S1x7, .f32⟩
  | .local _ .vmem, ⟨15, _⟩ => ⟨S1x7, .f32⟩
  | .local _ .vmem, ⟨16, _⟩ => ⟨S1x7, .f32⟩
  | .local _ .vmem, ⟨17, _⟩ => ⟨S1x7, .f32⟩
  | .local _ .vmem, ⟨18, _⟩ => ⟨S5000x7, .f32⟩
  | .local _ .vmem, ⟨19, _⟩ => ⟨S5000x7, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_c_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x7 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x7 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x7 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x7 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S7_S1x7 : S7.ShapeCasts S1x7
  inb_S128x7_S128x7_0_0 : ∀ a, (![0, 0] : Fin 2 → Nat) a + S128x7.size a ≤ S128x7.size a
  h_S128x7 : 0 < S128x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S5000x7 : S1x7.Broadcasts S5000x7
  inb_S5000x7_S5000x7_0_0 : ∀ a, (![0, 0] : Fin 2 → Nat) a + S5000x7.size a ≤ S5000x7.size a
  h_S5000x7 : 0 < S5000x7.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x7_S5000x7_1_0_0_1_n_n_wf : DotDims.WF S5000x128 S128x7 S5000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x7.size a ≤ S128x7.size a
  hwx1_1 : ∀ i : grid1.Coords, EltTy.bits .f32 = 32 ∨ (Rect.block (s := S128x7) S128x7.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x7.size a ≤ S1x7.size a
  hwx1_2 : ∀ i : grid1.Coords, EltTy.bits .f32 = 32 ∨ (Rect.block (s := S1x7) S1x7.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x7.size a ≤ S1x7.size a
  hwx1_3 : ∀ i : grid1.Coords, EltTy.bits .f32 = 32 ∨ (Rect.block (s := S1x7) S1x7.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x7.size a ≤ S1x7.size a
  hwx1_4 : ∀ i : grid1.Coords, EltTy.bits .f32 = 32 ∨ (Rect.block (s := S1x7) S1x7.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x7.size a ≤ S1x7.size a
  hwx1_5 : ∀ i : grid1.Coords, EltTy.bits .f32 = 32 ∨ (Rect.block (s := S1x7) S1x7.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x7.size a ≤ S1x7.size a
  hwx1_6 : ∀ i : grid1.Coords, EltTy.bits .f32 = 32 ∨ (Rect.block (s := S1x7) S1x7.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x7.size a ≤ S100000x7.size a
  hwx1_7 : ∀ i : grid1.Coords, EltTy.bits .f32 = 32 ∨ (Rect.block (s := S100000x7) S5000x7.size (cc1_transform_7 i) (hinb1_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x7_S5000x7_1_0_0_1_n_n : DotDims S5000x128 S128x7 S5000x7 where
  lhsContracting := [1]
  rhsContracting := [0]
  lhsNonContracting := [0]
  rhsNonContracting := [1]
  lhsBatch := []
  rhsBatch := []
  wf := dot_S5000x128_S128x7_S5000x7_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x7.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x7.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x7.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S5000x7.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x7 : Shape := ⟨2, ![128, 7]⟩
abbrev S7 : Shape := ⟨1, ![7]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x7 : Shape := ⟨2, ![100000, 7]⟩
abbrev S1x7 : Shape := ⟨2, ![1, 7]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x7, .f32⟩
  | .hbm, ⟨9, _⟩ => ⟨S7, .f32⟩
  | .hbm, ⟨10, _⟩ => ⟨S7, .f32⟩
  | .hbm, ⟨11, _⟩ => ⟨S7, .f32⟩
  | .hbm, ⟨12, _⟩ => ⟨S7, .f32⟩
  | .hbm, ⟨13, _⟩ => ⟨S7, .f32⟩
  | .hbm, ⟨14, _⟩ => ⟨S1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x1, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S1600000x1, .f32⟩
  | .hbm, ⟨65, _⟩ => ⟨S1600000x128, .f32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S100000x7, .f32⟩
  | .hbm, ⟨72, _⟩ => ⟨S1x7, .f32⟩
  | .hbm, ⟨73, _⟩ => ⟨S100000x7, .f32⟩
  | .hbm, ⟨74, _⟩ => ⟨S100000x7, .f32⟩
  | .hbm, ⟨75, _⟩ => ⟨S1x7, .f32⟩
  | .hbm, ⟨76, _⟩ => ⟨S100000x7, .f32⟩
  | .hbm, ⟨77, _⟩ => ⟨S100000x7, .f32⟩
  | .hbm, ⟨78, _⟩ => ⟨S1x7, .f32⟩
  | .hbm, ⟨79, _⟩ => ⟨S100000x7, .f32⟩
  | .hbm, ⟨80, _⟩ => ⟨S100000x7, .f32⟩
  | .hbm, ⟨81, _⟩ => ⟨S_, .f32⟩
  | .hbm, ⟨82, _⟩ => ⟨S7, .f32⟩
  | .hbm, ⟨83, _⟩ => ⟨S7, .f32⟩
  | .hbm, ⟨84, _⟩ => ⟨S7, .f32⟩
  | .hbm, ⟨85, _⟩ => ⟨S1x7, .f32⟩
  | .hbm, ⟨86, _⟩ => ⟨S100000x7, .f32⟩
  | .hbm, ⟨87, _⟩ => ⟨S100000x7, .f32⟩
  | .hbm, ⟨88, _⟩ => ⟨S1x7, .f32⟩
  | .hbm, ⟨89, _⟩ => ⟨S100000x7, .f32⟩
  | .hbm, ⟨90, _⟩ => ⟨S100000x7, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call0_cst : Ref sig .tc := ⟨.hbm, 52, rfl⟩
abbrev main_call0_v0 : Ref sig .tc := ⟨.hbm, 53, rfl⟩
abbrev main_v32 : Ref sig .tc := ⟨.hbm, 54, rfl⟩
abbrev main_c_2 : Ref sig .tc := ⟨.hbm, 55, rfl⟩
abbrev main_v33 : Ref sig .tc := ⟨.hbm, 56, rfl⟩
abbrev main_v34 : Ref sig .tc := ⟨.hbm, 57, rfl⟩
abbrev main_c_3 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_5 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  bcast_S_S7 : S_.BroadcastsInDim S7 (![] : Fin 0 → Fin S7.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x7_S100000x7_1_0_0_1_n_n_wf : DotDims.WF S100000x128 S128x7 S100000x7 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x7_S100000x7_1_0_0_1_n_n : DotDims S100000x128 S128x7 S100000x7 where
  lhsContracting := [1]
  rhsContracting := [0]
  lhsNonContracting := [0]
  rhsNonContracting := [1]
  lhsBatch := []
  rhsBatch := []
  wf := dot_S100000x128_S128x7_S100000x7_1_0_0_1_n_n_wf

class Facts : Prop extends Facts₀ where

variable [Facts]
-- ==== Proof.Spec.lean ====
/-
  The mathematics of the two fused dense stages of a two-round graph convolution, stated once,
  index by index on the extended reals.

  A dense stage takes the aggregated node features `agg` (one row per node), a weight matrix `W`,
  a bias `b` and the four vectors of an inference-mode batch normalisation — scale `g`, shift `be`,
  running mean `mu`, running variance `var` — and produces, at node `r` and output channel `c`,

      g c · ((Σ_k agg (r, k) · W (k, c) + b c) − mu c) · (var c + ε)^(−1/2) + be c

  where ε is the single-precision number nearest 10⁻⁵, kept as its bit pattern (both programs
  spell the same word, so its value is never needed).  The first stage (128 channels) clamps
  the result below at zero; the second (7 channels) does not.  The grouping of the products and
  sums is the one both programs spell, so no law of the extended reals is needed to identify
  them: only the sum over the contracted axis has to be recognised on each side.
-/
import Idealize.ShloMosaic.PureOps.Ideal
import Idealize.ShloMosaic.Lib.ValueIdx

noncomputable section

namespace Cert.Gcn

open Idealize.ShloMosaic Idealize.ShloMosaic.ValueIdx

/-- Inference-mode batch normalisation of one biased pre-activation `z + b`:
    `g · ((z + b) − mu) · (var + ε)^(−1/2) + be`, grouped as written. -/
def bnorm (z b g be mu var : EReal) : EReal :=
  g * (z + b - mu) * Ideal.rsqrt (var + Ideal.ofBits .f32 0x3727C5AC#32) + be

/-- The hidden stage at node `r`, channel `c`: the normalised row-times-column product,
    clamped below at zero. -/
def hiddenAt (agg : (⟨2, ![100000, 128]⟩ : Shape).Idx → EReal) (W : (⟨2, ![128, 128]⟩ : Shape).Idx → EReal)
    (b g be mu var : (⟨1, ![128]⟩ : Shape).Idx → EReal) (r : Fin 100000) (c : Fin 128) : EReal :=
  max (bnorm (∑ k : Fin 128, agg (ix2 r k) * W (ix2 k c)) (b (ix1 c)) (g (ix1 c)) (be (ix1 c)) (mu (ix1 c)) (var (ix1 c)))
    (Ideal.ofBits .f32 0x00000000#32)

/-- The hidden stage as one array of 100000 × 128 entries. -/
def hidden (agg : (⟨2, ![100000, 128]⟩ : Shape).Idx → EReal) (W : (⟨2, ![128, 128]⟩ : Shape).Idx → EReal)
    (b g be mu var : (⟨1, ![128]⟩ : Shape).Idx → EReal) : (⟨2, ![100000, 128]⟩ : Shape).Idx → EReal :=
  fun i => hiddenAt agg W b g be mu var (i 0) (i 1)

/-- The output stage at node `r`, class `c`: the normalised row-times-column product. -/
def logitAt (agg : (⟨2, ![100000, 128]⟩ : Shape).Idx → EReal) (W : (⟨2, ![128, 7]⟩ : Shape).Idx → EReal)
    (b g be mu var : (⟨1, ![7]⟩ : Shape).Idx → EReal) (r : Fin 100000) (c : Fin 7) : EReal :=
  bnorm (∑ k : Fin 128, agg (ix2 r k) * W (ix2 k c)) (b (ix1 c)) (g (ix1 c)) (be (ix1 c)) (mu (ix1 c)) (var (ix1 c))

/-- The output stage as one array of 100000 × 7 entries. -/
def logits (agg : (⟨2, ![100000, 128]⟩ : Shape).Idx → EReal) (W : (⟨2, ![128, 7]⟩ : Shape).Idx → EReal)
    (b g be mu var : (⟨1, ![7]⟩ : Shape).Idx → EReal) : (⟨2, ![100000, 7]⟩ : Shape).Idx → EReal :=
  fun i => logitAt agg W b g be mu var (i 0) (i 1)

theorem hidden_ix2 (agg : (⟨2, ![100000, 128]⟩ : Shape).Idx → EReal) (W : (⟨2, ![128, 128]⟩ : Shape).Idx → EReal)
    (b g be mu var : (⟨1, ![128]⟩ : Shape).Idx → EReal) (r : Fin 100000) (c : Fin 128) :
    hidden agg W b g be mu var (ix2 r c) = hiddenAt agg W b g be mu var r c := rfl

theorem logits_ix2 (agg : (⟨2, ![100000, 128]⟩ : Shape).Idx → EReal) (W : (⟨2, ![128, 7]⟩ : Shape).Idx → EReal)
    (b g be mu var : (⟨1, ![7]⟩ : Shape).Idx → EReal) (r : Fin 100000) (c : Fin 7) :
    logits agg W b g be mu var (ix2 r c) = logitAt agg W b g be mu var r c := rfl

end Cert.Gcn

end
-- ==== Proof.RefValue.lean ====
/-
  The reference program as the same two dense stages around the same sparse aggregation.

  The reference computes, in order: an aggregation of the node features along the edges (each edge gathers its
  source node's row, scales it by the edge weight, and the rows are summed into the edge's target node), the
  hidden dense stage, the same aggregation of the hidden features, and the output dense stage.  The aggregation
  is carried as ONE function `spmm` of the feature array, the edge weights and the two edge index arrays: the
  kernel's program applies literally the same host operations, so the aggregation is never opened.  Read entry by
  entry through the generated stage lemmas, the operations between the aggregations are `Cert.Gcn.hidden` and
  `Cert.Gcn.logits`: the host's `dot_general` is the row-times-column sum, each vector broadcast over the rows
  reads its entry at the column, and the remaining operations act entry by entry.
-/
import proofs.«160998_j15092515078148_1_alg».proof.Proof.Gen.ReferenceIdeal.Read
import proofs.«160998_j15092515078148_1_alg».proof.Proof.Spec

noncomputable section

namespace Cert.ReferenceIdeal.GcnValue

open Cert.ReferenceIdeal Cert.ReferenceIdeal.Gen Cert.ReferenceIdeal.Read Idealize.ShloMosaic Idealize.ShloMosaic.ValueIdx Cert.Gcn

/-- Aggregation along the edges: edge `e` contributes `val e · x[col e, :]` to row `row e` of a zero array
    (a negative `col e` is first shifted by the number of nodes, as the array-indexing convention has it). -/
def spmm (x : (⟨S100000x128, .f32⟩ : BufTy).Contents (Elt Ideal)) (val : (⟨S1600000, .f32⟩ : BufTy).Contents (Elt Ideal)) (row col : (⟨S1600000, .i32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf (Host.gather gather_S100000x128_S1600000x1_S1600000x128_1_0_n_n_0_1_1128 x
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col)))
      (broadcastInDim S1600000x128 ![0, 1] bcast_S1600000x1_S1600000x128_0_1 (broadcastInDim S1600000x1 ![0] bcast_S1600000_S1600000x1_0 val)))

/-- The first aggregation is `spmm` of the node features. -/
theorem agg_first (x0 : (⟨S100000x128, .f32⟩ : BufTy).Contents (Elt Ideal)) (x1 : (⟨S1600000, .f32⟩ : BufTy).Contents (Elt Ideal)) (x14 x15 : (⟨S1600000, .i32⟩ : BufTy).Contents (Elt Ideal)) :
    val_main_v12 (F := Ideal) x0 x1 x14 x15 = spmm x0 x1 x14 x15 := by
  unfold val_main_v12 val_main_v10 val_main_v11 val_main_v9 val_main_v6 val_main_v8 val_main_v7 val_main_v5 val_main_v4 val_main_v3
    val_main_v2 val_main_v1 val_main_v0 val_main_cst val_main_c val_main_c_0 spmm
  rfl

/-- The second aggregation is `spmm` of the hidden features. -/
theorem agg_second (x0 : (⟨S100000x128, .f32⟩ : BufTy).Contents (Elt Ideal)) (x1 : (⟨S1600000, .f32⟩ : BufTy).Contents (Elt Ideal)) (x2 : (⟨S128x128, .f32⟩ : BufTy).Contents (Elt Ideal)) (x3 x4 x5 x6 x7 : (⟨S128, .f32⟩ : BufTy).Contents (Elt Ideal)) (x14 x15 : (⟨S1600000, .i32⟩ : BufTy).Contents (Elt Ideal)) :
    val_main_v45 (F := Ideal) x0 x1 x2 x3 x4 x5 x6 x7 x14 x15 = spmm (val_main_v32 (F := Ideal) x0 x1 x2 x3 x4 x5 x6 x7 x14 x15) x1 x14 x15 := by
  unfold val_main_v45 val_main_v43 val_main_v44 val_main_v42 val_main_v39 val_main_v41 val_main_v40 val_main_v38 val_main_v37 val_main_v36
    val_main_v35 val_main_v34 val_main_v33 val_main_cst_4 val_main_c_2 val_main_c_3 spmm
  rfl

/-! ## The indices the stage lemmas read at, written by coordinates -/

theorem lidxH (r : Fin 100000) (c k : Fin 128) : lidx_main_v13 (ix2 r c : S100000x128.Idx) k = ix2 r k :=
  funext fun a => by match a with | ⟨0, _⟩ => rfl | ⟨1, _⟩ => rfl
theorem ridxH (r : Fin 100000) (c k : Fin 128) : ridx_main_v13 (ix2 r c : S100000x128.Idx) k = ix2 k c :=
  funext fun a => by match a with | ⟨0, _⟩ => rfl | ⟨1, _⟩ => rfl
theorem vecH_b (r : Fin 100000) (c : Fin 128) : idx_main_v14 (idx_main_v15 (ix2 r c : S100000x128.Idx)) = ix1 c :=
  funext fun a => by match a with | ⟨0, _⟩ => rfl
theorem vecH_mu (r : Fin 100000) (c : Fin 128) : idx_main_v17 (idx_main_v18 (ix2 r c : S100000x128.Idx)) = ix1 c :=
  funext fun a => by match a with | ⟨0, _⟩ => rfl
theorem vecH_g (r : Fin 100000) (c : Fin 128) : idx_main_v20 (idx_main_v21 (ix2 r c : S100000x128.Idx)) = ix1 c :=
  funext fun a => by match a with | ⟨0, _⟩ => rfl
theorem vecH_var (r : Fin 100000) (c : Fin 128) : idx_main_v26 (idx_main_v27 (ix2 r c : S100000x128.Idx)) = ix1 c :=
  funext fun a => by match a with | ⟨0, _⟩ => rfl
theorem vecH_be (r : Fin 100000) (c : Fin 128) : idx_main_v29 (idx_main_v30 (ix2 r c : S100000x128.Idx)) = ix1 c :=
  funext fun a => by match a with | ⟨0, _⟩ => rfl

theorem lidxL (r : Fin 100000) (c : Fin 7) (k : Fin 128) : lidx_main_v46 (ix2 r c : S100000x7.Idx) k = ix2 r k :=
  funext fun a => by match a with | ⟨0, _⟩ => rfl | ⟨1, _⟩ => rfl
theorem ridxL (r : Fin 100000) (c : Fin 7) (k : Fin 128) : ridx_main_v46 (ix2 r c : S100000x7.Idx) k = ix2 k c :=
  funext fun a => by match a with | ⟨0, _⟩ => rfl | ⟨1, _⟩ => rfl
theorem vecL_b (r : Fin 100000) (c : Fin 7) : idx_main_v47 (idx_main_v48 (ix2 r c : S100000x7.Idx)) = ix1 c :=
  funext fun a => by match a with | ⟨0, _⟩ => rfl
theorem vecL_mu (r : Fin 100000) (c : Fin 7) : idx_main_v50 (idx_main_v51 (ix2 r c : S100000x7.Idx)) = ix1 c :=
  funext fun a => by match a with | ⟨0, _⟩ => rfl
theorem vecL_g (r : Fin 100000) (c : Fin 7) : idx_main_v53 (idx_main_v54 (ix2 r c : S100000x7.Idx)) = ix1 c :=
  funext fun a => by match a with | ⟨0, _⟩ => rfl
theorem vecL_var (r : Fin 100000) (c : Fin 7) : idx_main_v59 (idx_main_v60 (ix2 r c : S100000x7.Idx)) = ix1 c :=
  funext fun a => by match a with | ⟨0, _⟩ => rfl
theorem vecL_be (r : Fin 100000) (c : Fin 7) : idx_main_v62 (idx_main_v63 (ix2 r c : S100000x7.Idx)) = ix1 c :=
  funext fun a => by match a with | ⟨0, _⟩ => rfl

/-! ## The two dense stages -/

/-- From the first aggregation to the hidden features: `Cert.Gcn.hidden`. -/
theorem hidden_ref (x0 : (⟨S100000x128, .f32⟩ : BufTy).Contents (Elt Ideal)) (x1 : (⟨S1600000, .f32⟩ : BufTy).Contents (Elt Ideal)) (x2 : (⟨S128x128, .f32⟩ : BufTy).Contents (Elt Ideal)) (x3 x4 x5 x6 x7 : (⟨S128, .f32⟩ : BufTy).Contents (Elt Ideal)) (x14 x15 : (⟨S1600000, .i32⟩ : BufTy).Contents (Elt Ideal)) :
    val_main_v32 (F := Ideal) x0 x1 x2 x3 x4 x5 x6 x7 x14 x15 = hidden (val_main_v12 (F := Ideal) x0 x1 x14 x15) x2 x3 x4 x5 x6 x7 := by
  funext i
  obtain ⟨r, c, rfl⟩ : ∃ (r : Fin 100000) (c : Fin 128), i = ix2 r c := ⟨i 0, i 1, eq_ix2 i⟩
  rw [hidden_ix2]
  unfold hiddenAt bnorm
  rw [val_main_v32_apply, val_main_v31_apply, val_main_v28_apply, val_main_v22_apply, val_main_v19_apply, val_main_v16_apply,
    val_main_v13_apply, val_main_v15_apply, val_main_v14_apply, val_main_v18_apply, val_main_v17_apply, val_main_v21_apply,
    val_main_v20_apply, val_main_v27_apply, val_main_v26_apply, val_main_v25_apply, val_main_v24_apply, val_main_v23_apply,
    val_main_cst_1_apply, val_main_v30_apply, val_main_v29_apply, val_main_call0_v0_apply, val_main_call0_cst_apply,
    vecH_b, vecH_mu, vecH_g, vecH_var, vecH_be]
  simp only [lidxH, ridxH]
  rfl

/-- From the second aggregation to the result: `Cert.Gcn.logits`. -/
theorem logits_ref (x0 : (⟨S100000x128, .f32⟩ : BufTy).Contents (Elt Ideal)) (x1 : (⟨S1600000, .f32⟩ : BufTy).Contents (Elt Ideal)) (x2 : (⟨S128x128, .f32⟩ : BufTy).Contents (Elt Ideal)) (x3 x4 x5 x6 x7 : (⟨S128, .f32⟩ : BufTy).Contents (Elt Ideal)) (x8 : (⟨S128x7, .f32⟩ : BufTy).Contents (Elt Ideal)) (x9 x10 x11 x12 x13 : (⟨S7, .f32⟩ : BufTy).Contents (Elt Ideal)) (x14 x15 : (⟨S1600000, .i32⟩ : BufTy).Contents (Elt Ideal)) :
    val_main_v64 (F := Ideal) x0 x1 x2 x3 x4 x5 x6 x7 x8 x9 x10 x11 x12 x13 x14 x15
      = logits (val_main_v45 (F := Ideal) x0 x1 x2 x3 x4 x5 x6 x7 x14 x15) x8 x9 x10 x11 x12 x13 := by
  funext i
  obtain ⟨r, c, rfl⟩ : ∃ (r : Fin 100000) (c : Fin 7), i = ix2 r c := ⟨i 0, i 1, eq_ix2 i⟩
  rw [logits_ix2]
  unfold logitAt bnorm
  rw [val_main_v64_apply, val_main_v61_apply, val_main_v55_apply, val_main_v52_apply, val_main_v49_apply,
    val_main_v46_apply, val_main_v48_apply, val_main_v47_apply, val_main_v51_apply, val_main_v50_apply, val_main_v54_apply,
    val_main_v53_apply, val_main_v60_apply, val_main_v59_apply, val_main_v58_apply, val_main_v57_apply, val_main_v56_apply,
    val_main_cst_5_apply, val_main_v63_apply, val_main_v62_apply,
    vecL_b, vecL_mu, vecL_g, vecL_var, vecL_be]
  simp only [lidxL, ridxL]
  rfl

/-- The reference's result as one function of its arguments. -/
theorem result_ref (x0 : (⟨S100000x128, .f32⟩ : BufTy).Contents (Elt Ideal)) (x1 : (⟨S1600000, .f32⟩ : BufTy).Contents (Elt Ideal)) (x2 : (⟨S128x128, .f32⟩ : BufTy).Contents (Elt Ideal)) (x3 x4 x5 x6 x7 : (⟨S128, .f32⟩ : BufTy).Contents (Elt Ideal)) (x8 : (⟨S128x7, .f32⟩ : BufTy).Contents (Elt Ideal)) (x9 x10 x11 x12 x13 : (⟨S7, .f32⟩ : BufTy).Contents (Elt Ideal)) (x14 x15 : (⟨S1600000, .i32⟩ : BufTy).Contents (Elt Ideal)) :
    val_main_v64 (F := Ideal) x0 x1 x2 x3 x4 x5 x6 x7 x8 x9 x10 x11 x12 x13 x14 x15
      = logits (spmm (hidden (spmm x0 x1 x14 x15) x2 x3 x4 x5 x6 x7) x1 x14 x15) x8 x9 x10 x11 x12 x13 := by
  rw [logits_ref, agg_second, hidden_ref, agg_first]

end Cert.ReferenceIdeal.GcnValue

end
-- ==== Proof.KernelPay.lean ====
/-
  The two kernel bodies as arithmetic: what each body stores, read at one entry of its block.

  Each body loads a block of 5000 aggregated rows, the whole weight matrix and five one-row arrays
  (bias, variance, scale, mean, shift, in the order the body reads them), and stores
  `scale · ((rows · weights + bias) − mean) · (variance + ε)^(−1/2) + shift`, the first body clamped
  below at zero.  Read at row `p`, column `q` of the block this is `Cert.Gcn.bnorm` of the row-times-column
  sum and the five rows' entries `q`: the matrix product into a zero accumulator is the plain sum over the
  contracted axis, a one-row array broadcast down the rows reads its entry `q`, and every other
  operation acts entry by entry.
-/
import proofs.«160998_j15092515078148_1_alg».proof.Proof.Gen.KernelIdeal.Skeleton
import proofs.«160998_j15092515078148_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GcnValue

open Cert.KernelIdeal Cert.KernelIdeal.Gen Idealize.ShloMosaic Idealize.ShloMosaic.ValueIdx Cert.Gcn

/-! ## The first body: 128 output channels, clamped at zero -/

theorem lhsH_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsH_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsH_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsH_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's matrix product into a zero accumulator, read at row `p`, column `q`: the plain sum over the
    contracted axis of the block's row times the weight's column (the two narrowings to bf16 are the identity on the
    extended reals, and so is the cast of the block to its own shape). -/
theorem productH_at (x0 : Vec Ideal S5000x128 .f32) (x1 : Vec Ideal S128x128 .f32) (p : Fin 5000) (q : Fin 128) :
    matmul (F := Ideal) dot_S5000x128_S128x128_S5000x128_1_0_0_1_n_n none
        (truncf .bf16 (shapeCast S5000x128 x0 shapeCasts_S5000x128_S5000x128) bitsLt_bf16_f32)
        (truncf .bf16 x1 bitsLt_bf16_f32) (constant (F := Ideal) S5000x128 .f32 0x00000000#32) (ix2 p q)
      = ∑ k : Fin 128, x0 (ix2 p k) * x1 (ix2 k q) := by
  rw [shapeCast_self]
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsH_0 _ _
    | ⟨1, _⟩ => exact (lhsH_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsH_0 _ _).trans hk
    | ⟨1, _⟩ => exact rhsH_1 _ _)
  rw [el, er]
  rfl

/-- A one-row array broadcast down the block's rows, read at `(p, q)`: the row's entry `q`. -/
theorem rowH_at (x : FVec Ideal S1x128 .f32) (p : Fin 5000) (q : Fin 128) :
    broadcastTo S5000x128 (shapeCast S1x128 x shapeCasts_S1x128_S1x128) broadcasts_S1x128_S5000x128 (ix2 p q) = x (ix2 (0 : Fin 1) q) := by
  rw [shapeCast_self]
  exact broadcastTo_1b_ab_apply x broadcasts_S1x128_S5000x128 p q

/-- The reciprocal square root of the variance row plus ε, broadcast down the rows, read at `(p, q)`. -/
theorem invstdH_at (x : FVec Ideal S1x128 .f32) (p : Fin 5000) (q : Fin 128) :
    broadcastTo S5000x128 (rsqrt (F := Ideal) (addf (shapeCast S1x128 x shapeCasts_S1x128_S1x128) (broadcast S1x128 (Scalar.ofBits (F := Ideal) .f32 0x3727C5AC#32)))) broadcasts_S1x128_S5000x128 (ix2 p q)
      = Ideal.rsqrt (x (ix2 (0 : Fin 1) q) + Ideal.ofBits .f32 0x3727C5AC#32) := by
  rw [shapeCast_self]
  refine (broadcastTo_1b_ab_apply _ broadcasts_S1x128_S5000x128 p q).trans ?_
  rfl

/-- The first body's stored value at row `p`, channel `q` of its block. -/
theorem hidden_pay_at (x0 : Vec Ideal S5000x128 .f32) (x1 : Vec Ideal S128x128 .f32) (xb xv xg xm xe : Vec Ideal S1x128 .f32)
    (p : Fin 5000) (q : Fin 128) :
    k0_pay1 (F := Ideal) x0 x1 xb xv xg xm xe (ix2 p q)
      = max (bnorm (∑ k : Fin 128, x0 (ix2 p k) * x1 (ix2 k q)) (xb (ix2 (0 : Fin 1) q)) (xg (ix2 (0 : Fin 1) q))
          (xe (ix2 (0 : Fin 1) q)) (xm (ix2 (0 : Fin 1) q)) (xv (ix2 (0 : Fin 1) q))) (Ideal.ofBits .f32 0x00000000#32) := by
  unfold k0_pay1 bnorm
  simp only [maximumf_apply, addf_apply, mulf_apply, subf_apply, broadcast_apply, productH_at, invstdH_at,
    rowH_at xg p q, rowH_at xb p q, rowH_at xm p q, rowH_at xe p q]
  rfl

/-! ## The second body: 7 output classes, no clamp -/

theorem lhsL_0 (i : S5000x7.Idx) (q : dot_S5000x128_S128x7_S5000x7_1_0_0_1_n_n.contr.Idx) :
    (dot_S5000x128_S128x7_S5000x7_1_0_0_1_n_n.lhsIdx i q 0).val = (i 0).val := by
  unfold DotDims.lhsIdx
  rw [dif_neg (show ¬(0 : Fin S5000x128.rank) ∈ dot_S5000x128_S128x7_S5000x7_1_0_0_1_n_n.lhsBatch by decide), dif_pos (show (0 : Fin S5000x128.rank) ∈ dot_S5000x128_S128x7_S5000x7_1_0_0_1_n_n.lhsNonContracting by decide)]
  rfl
theorem lhsL_1 (i : S5000x7.Idx) (q : dot_S5000x128_S128x7_S5000x7_1_0_0_1_n_n.contr.Idx) :
    (dot_S5000x128_S128x7_S5000x7_1_0_0_1_n_n.lhsIdx i q 1).val = (q ⟨0, by decide⟩).val :=
  dot_S5000x128_S128x7_S5000x7_1_0_0_1_n_n.lhsIdx_val_of_single rfl i q
theorem rhsL_0 (i : S5000x7.Idx) (q : dot_S5000x128_S128x7_S5000x7_1_0_0_1_n_n.contr.Idx) :
    (dot_S5000x128_S128x7_S5000x7_1_0_0_1_n_n.rhsIdx i q 0).val = (q ⟨0, by decide⟩).val :=
  dot_S5000x128_S128x7_S5000x7_1_0_0_1_n_n.rhsIdx_val_of_single rfl i q
theorem rhsL_1 (i : S5000x7.Idx) (q : dot_S5000x128_S128x7_S5000x7_1_0_0_1_n_n.contr.Idx) :
    (dot_S5000x128_S128x7_S5000x7_1_0_0_1_n_n.rhsIdx i q 1).val = (i 1).val := by
  unfold DotDims.rhsIdx
  rw [dif_neg (show ¬(1 : Fin S128x7.rank) ∈ dot_S5000x128_S128x7_S5000x7_1_0_0_1_n_n.rhsBatch by decide), dif_pos (show (1 : Fin S128x7.rank) ∈ dot_S5000x128_S128x7_S5000x7_1_0_0_1_n_n.rhsNonContracting by decide)]
  rfl

/-- The body's matrix product into a zero accumulator, read at row `p`, column `q`: the plain sum over the
    contracted axis of the block's row times the weight's column (the two narrowings to bf16 are the identity on the
    extended reals, and so is the cast of the block to its own shape). -/
theorem productL_at (x0 : Vec Ideal S5000x128 .f32) (x1 : Vec Ideal S128x7 .f32) (p : Fin 5000) (q : Fin 7) :
    matmul (F := Ideal) dot_S5000x128_S128x7_S5000x7_1_0_0_1_n_n none
        (truncf .bf16 (shapeCast S5000x128 x0 shapeCasts_S5000x128_S5000x128) bitsLt_bf16_f32)
        (truncf .bf16 x1 bitsLt_bf16_f32) (constant (F := Ideal) S5000x7 .f32 0x00000000#32) (ix2 p q)
      = ∑ k : Fin 128, x0 (ix2 p k) * x1 (ix2 k q) := by
  rw [shapeCast_self]
  refine (Ideal.matmul_constant_zero_apply dot_S5000x128_S128x7_S5000x7_1_0_0_1_n_n none _ _ (ix2 p q)).trans ?_
  rw [← Equiv.sum_comp (contrEquiv1 dot_S5000x128_S128x7_S5000x7_1_0_0_1_n_n 128 rfl rfl).symm]
  refine Finset.sum_congr rfl fun k _ => ?_
  have hk := contrEquiv1_symm_val dot_S5000x128_S128x7_S5000x7_1_0_0_1_n_n 128 rfl rfl k
  have el : dot_S5000x128_S128x7_S5000x7_1_0_0_1_n_n.lhsIdx (ix2 p q) ((contrEquiv1 dot_S5000x128_S128x7_S5000x7_1_0_0_1_n_n 128 rfl rfl).symm k) = ix2 p k := funext fun a => Fin.ext (by
    match a with
    | ⟨0, _⟩ => exact lhsL_0 _ _
    | ⟨1, _⟩ => exact (lhsL_1 _ _).trans hk)
  have er : dot_S5000x128_S128x7_S5000x7_1_0_0_1_n_n.rhsIdx (ix2 p q) ((contrEquiv1 dot_S5000x128_S128x7_S5000x7_1_0_0_1_n_n 128 rfl rfl).symm k) = ix2 k q := funext fun a => Fin.ext (by
    match a with
    | ⟨0, _⟩ => exact (rhsL_0 _ _).trans hk
    | ⟨1, _⟩ => exact rhsL_1 _ _)
  rw [el, er]
  rfl

/-- A one-row array broadcast down the block's rows, read at `(p, q)`: the row's entry `q`. -/
theorem rowL_at (x : FVec Ideal S1x7 .f32) (p : Fin 5000) (q : Fin 7) :
    broadcastTo S5000x7 (shapeCast S1x7 x shapeCasts_S1x7_S1x7) broadcasts_S1x7_S5000x7 (ix2 p q) = x (ix2 (0 : Fin 1) q) := by
  rw [shapeCast_self]
  exact broadcastTo_1b_ab_apply x broadcasts_S1x7_S5000x7 p q

/-- The reciprocal square root of the variance row plus ε, broadcast down the rows, read at `(p, q)`. -/
theorem invstdL_at (x : FVec Ideal S1x7 .f32) (p : Fin 5000) (q : Fin 7) :
    broadcastTo S5000x7 (rsqrt (F := Ideal) (addf (shapeCast S1x7 x shapeCasts_S1x7_S1x7) (broadcast S1x7 (Scalar.ofBits (F := Ideal) .f32 0x3727C5AC#32)))) broadcasts_S1x7_S5000x7 (ix2 p q)
      = Ideal.rsqrt (x (ix2 (0 : Fin 1) q) + Ideal.ofBits .f32 0x3727C5AC#32) := by
  rw [shapeCast_self]
  refine (broadcastTo_1b_ab_apply _ broadcasts_S1x7_S5000x7 p q).trans ?_
  rfl

/-- The second body's stored value at row `p`, class `q` of its block. -/
theorem logit_pay_at (x0 : Vec Ideal S5000x128 .f32) (x1 : Vec Ideal S128x7 .f32) (xb xv xg xm xe : Vec Ideal S1x7 .f32)
    (p : Fin 5000) (q : Fin 7) :
    k1_pay1 (F := Ideal) x0 x1 xb xv xg xm xe (ix2 p q)
      = bnorm (∑ k : Fin 128, x0 (ix2 p k) * x1 (ix2 k q)) (xb (ix2 (0 : Fin 1) q)) (xg (ix2 (0 : Fin 1) q))
          (xe (ix2 (0 : Fin 1) q)) (xm (ix2 (0 : Fin 1) q)) (xv (ix2 (0 : Fin 1) q)) := by
  unfold k1_pay1 bnorm
  simp only [addf_apply, mulf_apply, subf_apply, broadcast_apply, productL_at, invstdL_at,
    rowL_at xg p q, rowL_at xb p q, rowL_at xm p q, rowL_at xe p q]

end Cert.KernelIdeal.GcnValue

end
-- ==== Proof.KernelBlocks.lean ====
/-
  From the blocks the grid points write back to the whole result array, for each of the two regions.

  Each region has 20 points; point `t` stages rows `5000·t … 5000·t + 4999` of the aggregated features, the
  whole weight matrix and five one-row arrays, runs the body, and writes back rows `5000·t …` of the result.
  So what point `t` writes back is block `t` of ONE function of the arrays as the region finds them — the dense
  stage `Cert.Gcn.hidden` (region 0) or `Cert.Gcn.logits` (region 1) —: entry `(p, q)` of the block is the
  body's stored value there, its row-times-column sum runs over the array's row `5000·t + p`, and the one-row
  arrays are read at `(0, q)`.  The 20 blocks tile the 100000 rows (row `r` is in block `r / 5000`), so after
  the region the result array is that function.
-/
import proofs.«160998_j15092515078148_1_alg».proof.Proof.Gen.KernelIdeal.Frame
import proofs.«160998_j15092515078148_1_alg».proof.Proof.KernelPay
import Idealize.ShloMosaic.Lib.Pipeline.Value

set_option maxRecDepth 16384

noncomputable section

namespace Cert.KernelIdeal.GcnValue

open Cert.KernelIdeal Cert.KernelIdeal.Gen Idealize.ShloMosaic Idealize.ShloMosaic.TcCoe Idealize.ShloMosaic.ValueIdx Idealize.SL.Sem Cert.Gcn
open Idealize.ShloMosaic.Pipeline (Dat)

theorem hz : (![0, 0] : Fin 2 → Nat) = fun _ => 0 := funext fun a => by fin_cases a <;> rfl

/-! ## Region 0: 128 channels -/

section Region0
variable (V : (c : Dev nD) → (b : Ref sig .tc) → Buf (Elt Ideal) ((c : Thread nD τ).loc b))

/-- The printed index maps over the grid's 20 points: the row blocks of the aggregated features and of the result move
    together, one block of 5000 rows per point, and every other window stays at its one block. -/
theorem hid_idx_facts : ∀ t : Fin cfg0.N, win0_0.index t (0 : Fin 2) = win0_7.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0 :=
  (by decide +kernel : ∀ t : Fin grid0.N, _)

/-- The row of the whole array that row `p` of point `t`'s block is. -/
def hid_row (t : Fin cfg0.N) (p : Fin 5000) : Fin 100000 :=
  ⟨t.val * 5000 + p.val, by have hN : cfg0.N = 20 := N_0; have := t.isLt; have := p.isLt; omega⟩

/-- The feature block at point `t`, read at `(p, k)`: the array's row `t · 5000 + p`. -/
theorem hid_blk0 (c : Dev nD) (t : Fin cfg0.N) (p : Fin 5000) (k : Fin 128) :
    iblk0 V c 0 t (ix2 p k) = V c main_v12 (ix2 (hid_row t p) k) := by
  obtain ⟨e00, e01, e10, e11, e20, e21, e30, e31, e40, e41, e50, e51, e60, e61, e70, e71⟩ := hid_idx_facts t
  show V c main_v12 (((cfg0.win 0).blk t).view.emb (ix2 p k)) = V c main_v12 (ix2 (hid_row t p) k)
  refine congrArg (V c main_v12) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight block (the whole matrix, the same at every point) read at `(k, q)`. -/
theorem hid_blk1 (c : Dev nD) (t : Fin cfg0.N) (k : Fin 128) (q : Fin 128) :
    iblk0 V c 1 t (ix2 k q) = V c main_arg2 (ix2 k q) := by
  obtain ⟨e00, e01, e10, e11, e20, e21, e30, e31, e40, e41, e50, e51, e60, e61, e70, e71⟩ := hid_idx_facts t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Window 2's block (a one-row array, the same at every point) read at `(0, q)`: the array's entry there. -/
theorem hid_blk2 (c : Dev nD) (t : Fin cfg0.N) (q : Fin 128) :
    iblk0 V c 2 t (ix2 (0 : Fin 1) q) = V c main_v13 (ix2 (0 : Fin 1) q) := by
  obtain ⟨e00, e01, e10, e11, e20, e21, e30, e31, e40, e41, e50, e51, e60, e61, e70, e71⟩ := hid_idx_facts t
  show V c main_v13 (((cfg0.win 2).blk t).view.emb (ix2 (0 : Fin 1) q)) = V c main_v13 (ix2 (0 : Fin 1) q)
  refine congrArg (V c main_v13) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- Window 3's block (a one-row array, the same at every point) read at `(0, q)`: the array's entry there. -/
theorem hid_blk3 (c : Dev nD) (t : Fin cfg0.N) (q : Fin 128) :
    iblk0 V c 3 t (ix2 (0 : Fin 1) q) = V c main_v14 (ix2 (0 : Fin 1) q) := by
  obtain ⟨e00, e01, e10, e11, e20, e21, e30, e31, e40, e41, e50, e51, e60, e61, e70, e71⟩ := hid_idx_facts t
  show V c main_v14 (((cfg0.win 3).blk t).view.emb (ix2 (0 : Fin 1) q)) = V c main_v14 (ix2 (0 : Fin 1) q)
  refine congrArg (V c main_v14) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- Window 4's block (a one-row array, the same at every point) read at `(0, q)`: the array's entry there. -/
theorem hid_blk4 (c : Dev nD) (t : Fin cfg0.N) (q : Fin 128) :
    iblk0 V c 4 t (ix2 (0 : Fin 1) q) = V c main_v15 (ix2 (0 : Fin 1) q) := by
  obtain ⟨e00, e01, e10, e11, e20, e21, e30, e31, e40, e41, e50, e51, e60, e61, e70, e71⟩ := hid_idx_facts t
  show V c main_v15 (((cfg0.win 4).blk t).view.emb (ix2 (0 : Fin 1) q)) = V c main_v15 (ix2 (0 : Fin 1) q)
  refine congrArg (V c main_v15) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Window 5's block (a one-row array, the same at every point) read at `(0, q)`: the array's entry there. -/
theorem hid_blk5 (c : Dev nD) (t : Fin cfg0.N) (q : Fin 128) :
    iblk0 V c 5 t (ix2 (0 : Fin 1) q) = V c main_v16 (ix2 (0 : Fin 1) q) := by
  obtain ⟨e00, e01, e10, e11, e20, e21, e30, e31, e40, e41, e50, e51, e60, e61, e70, e71⟩ := hid_idx_facts t
  show V c main_v16 (((cfg0.win 5).blk t).view.emb (ix2 (0 : Fin 1) q)) = V c main_v16 (ix2 (0 : Fin 1) q)
  refine congrArg (V c main_v16) (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

/-- Window 6's block (a one-row array, the same at every point) read at `(0, q)`: the array's entry there. -/
theorem hid_blk6 (c : Dev nD) (t : Fin cfg0.N) (q : Fin 128) :
    iblk0 V c 6 t (ix2 (0 : Fin 1) q) = V c main_v17 (ix2 (0 : Fin 1) q) := by
  obtain ⟨e00, e01, e10, e11, e20, e21, e30, e31, e40, e41, e50, e51, e60, e61, e70, e71⟩ := hid_idx_facts t
  show V c main_v17 (((cfg0.win 6).blk t).view.emb (ix2 (0 : Fin 1) q)) = V c main_v17 (ix2 (0 : Fin 1) q)
  refine congrArg (V c main_v17) (funext fun a => Fin.ext ?_)
  match a with
  | ⟨0, _⟩ => show win0_6.index t (0 : Fin 2) * 1 + 1 * 0 = 0; omega
  | ⟨1, _⟩ => show win0_6.index t (1 : Fin 2) * 128 + 1 * q.val = q.val; omega

/-- Where entry `(p, q)` of point `t`'s result block sits in the result array. -/
theorem hid_out_emb (t : Fin cfg0.N) (p : Fin 5000) (q : Fin 128) :
    ((cfg0.win 7).blk t).view.emb (ix2 p q) = ix2 (hid_row t p) q := by
  obtain ⟨e00, e01, e10, e11, e20, e21, e30, e31, e40, e41, e50, e51, e60, e61, e70, e71⟩ := hid_idx_facts t
  refine funext fun a => Fin.ext ?_
  match a with
  | ⟨0, _⟩ => show win0_7.index t (0 : Fin 2) * 5000 + 1 * p.val = t.val * 5000 + p.val; omega
  | ⟨1, _⟩ => show win0_7.index t (1 : Fin 2) * 128 + 1 * q.val = q.val; omega

/-- The dense stage of the arrays as the region finds them: its features, its weights, and the five one-row arrays
    read as vectors. -/
def hid_of (c : Dev nD) : S100000x128.Idx → EReal :=
  hidden (V c main_v12) (V c main_arg2) (fun j => V c main_v13 (ix2 (0 : Fin 1) (j 0))) (fun j => V c main_v14 (ix2 (0 : Fin 1) (j 0)))
    (fun j => V c main_v15 (ix2 (0 : Fin 1) (j 0))) (fun j => V c main_v16 (ix2 (0 : Fin 1) (j 0))) (fun j => V c main_v17 (ix2 (0 : Fin 1) (j 0)))

/-- WHAT POINT `t` WRITES BACK is block `t` of the dense stage of the arrays as the region finds them. -/
theorem hid_flushed (c : Dev nD) (t : Fin cfg0.N) :
    (dat0 V c).flushed 7 t = ((cfg0.win 7).blk t).view.read (Elt Ideal) (hid_of V c) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 6 t) (iblk0 V c 3 t) (iblk0 V c 5 t) (iblk0 V c 4 t) (ix2 p q)
      = hid_of V c (((cfg0.win 7).blk t).view.emb (ix2 p q))
  rw [hid_out_emb, hidden_pay_at]
  simp only [hid_blk0, hid_blk1, hid_blk2, hid_blk3, hid_blk4, hid_blk5, hid_blk6]
  rfl

/-- An index of the result array is in point `t`'s block iff each coordinate is in the block's range on its axis. -/
theorem hid_mem_blk (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v18).slice (win0_7.rect t)).set ↔ _
  rw [View.set_slice_whole, Rect.mem_set_unit]
  exact Iff.rfl

/-- Every row of the result lies in the block of the point numbered by the row's quotient by 5000. -/
theorem hid_cover (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨e00, e01, e10, e11, e20, e21, e30, e31, e40, e41, e50, e51, e60, e61, e70, e71⟩ := hid_idx_facts ⟨(i 0).val / 5000, hlt⟩
  refine ⟨⟨(i 0).val / 5000, hlt⟩, flush0_7 _, ?_⟩
  rw [hid_mem_blk]
  intro a
  match a with
  | ⟨0, _⟩ =>
    show win0_7.index ⟨(i 0).val / 5000, hlt⟩ (0 : Fin 2) * 5000 ≤ (i 0).val ∧ (i 0).val < win0_7.index ⟨(i 0).val / 5000, hlt⟩ (0 : Fin 2) * 5000 + 5000
    have e : win0_7.index ⟨(i 0).val / 5000, hlt⟩ (0 : Fin 2) = (i 0).val / 5000 := e70
    omega
  | ⟨1, _⟩ =>
    show win0_7.index ⟨(i 0).val / 5000, hlt⟩ (1 : Fin 2) * 128 ≤ (i 1).val ∧ (i 1).val < win0_7.index ⟨(i 0).val / 5000, hlt⟩ (1 : Fin 2) * 128 + 128
    omega

/-- THE RESULT ARRAY after the region: the dense stage of the arrays as the region finds them. -/
theorem hid_final (c : Dev nD) : (dat0 V c).arrAt 7 cfg0.N = hid_of V c :=
  (dat0 V c).arrAt_eq_of_cover 7 (hid_of V c) (fun t _ => hid_flushed V c t) (hid_cover)

end Region0

/-! ## Region 1: 7 channels -/

section Region1
variable (V : (c : Dev nD) → (b : Ref sig .tc) → Buf (Elt Ideal) ((c : Thread nD τ).loc b))

/-- The printed index maps over the grid's 20 points: the row blocks of the aggregated features and of the result move
    together, one block of 5000 rows per point, and every other window stays at its one block. -/
theorem out_idx_facts : ∀ t : Fin cfg1.N, win1_0.index t (0 : Fin 2) = win1_7.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

/-- The row of the whole array that row `p` of point `t`'s block is. -/
def out_row (t : Fin cfg1.N) (p : Fin 5000) : Fin 100000 :=
  ⟨t.val * 5000 + p.val, by have hN : cfg1.N = 20 := N_1; have := t.isLt; have := p.isLt; omega⟩

/-- The feature block at point `t`, read at `(p, k)`: the array's row `t · 5000 + p`. -/
theorem out_blk0 (c : Dev nD) (t : Fin cfg1.N) (p : Fin 5000) (k : Fin 128) :
    iblk1 V c 0 t (ix2 p k) = V c main_v31 (ix2 (out_row t p) k) := by
  obtain ⟨e00, e01, e10, e11, e20, e21, e30, e31, e40, e41, e50, e51, e60, e61, e70, e71⟩ := out_idx_facts t
  show V c main_v31 (((cfg1.win 0).blk t).view.emb (ix2 p k)) = V c main_v31 (ix2 (out_row t p) k)
  refine congrArg (V c main_v31) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The weight block (the whole matrix, the same at every point) read at `(k, q)`. -/
theorem out_blk1 (c : Dev nD) (t : Fin cfg1.N) (k : Fin 128) (q : Fin 7) :
    iblk1 V c 1 t (ix2 k q) = V c main_arg8 (ix2 k q) := by
  obtain ⟨e00, e01, e10, e11, e20, e21, e30, e31, e40, e41, e50, e51, e60, e61, e70, e71⟩ := out_idx_facts t
  show V c main_arg8 (((cfg1.win 1).blk t).view.emb (ix2 k q)) = V c main_arg8 (ix2 k q)
  refine congrArg (V c main_arg8) (funext fun a => Fin.ext ?_)
  match a with
  | ⟨0, _⟩ => show win1_1.index t (0 : Fin 2) * 128 + 1 * k.val = k.val; omega
  | ⟨1, _⟩ => show win1_1.index t (1 : Fin 2) * 7 + 1 * q.val = q.val; omega

/-- Window 2's block (a one-row array, the same at every point) read at `(0, q)`: the array's entry there. -/
theorem out_blk2 (c : Dev nD) (t : Fin cfg1.N) (q : Fin 7) :
    iblk1 V c 2 t (ix2 (0 : Fin 1) q) = V c main_v32 (ix2 (0 : Fin 1) q) := by
  obtain ⟨e00, e01, e10, e11, e20, e21, e30, e31, e40, e41, e50, e51, e60, e61, e70, e71⟩ := out_idx_facts t
  show V c main_v32 (((cfg1.win 2).blk t).view.emb (ix2 (0 : Fin 1) q)) = V c main_v32 (ix2 (0 : Fin 1) q)
  refine congrArg (V c main_v32) (funext fun a => Fin.ext ?_)
  match a with
  | ⟨0, _⟩ => show win1_2.index t (0 : Fin 2) * 1 + 1 * 0 = 0; omega
  | ⟨1, _⟩ => show win1_2.index t (1 : Fin 2) * 7 + 1 * q.val = q.val; omega

/-- Window 3's block (a one-row array, the same at every point) read at `(0, q)`: the array's entry there. -/
theorem out_blk3 (c : Dev nD) (t : Fin cfg1.N) (q : Fin 7) :
    iblk1 V c 3 t (ix2 (0 : Fin 1) q) = V c main_v33 (ix2 (0 : Fin 1) q) := by
  obtain ⟨e00, e01, e10, e11, e20, e21, e30, e31, e40, e41, e50, e51, e60, e61, e70, e71⟩ := out_idx_facts t
  show V c main_v33 (((cfg1.win 3).blk t).view.emb (ix2 (0 : Fin 1) q)) = V c main_v33 (ix2 (0 : Fin 1) q)
  refine congrArg (V c main_v33) (funext fun a => Fin.ext ?_)
  match a with
  | ⟨0, _⟩ => show win1_3.index t (0 : Fin 2) * 1 + 1 * 0 = 0; omega
  | ⟨1, _⟩ => show win1_3.index t (1 : Fin 2) * 7 + 1 * q.val = q.val; omega

/-- Window 4's block (a one-row array, the same at every point) read at `(0, q)`: the array's entry there. -/
theorem out_blk4 (c : Dev nD) (t : Fin cfg1.N) (q : Fin 7) :
    iblk1 V c 4 t (ix2 (0 : Fin 1) q) = V c main_v34 (ix2 (0 : Fin 1) q) := by
  obtain ⟨e00, e01, e10, e11, e20, e21, e30, e31, e40, e41, e50, e51, e60, e61, e70, e71⟩ := out_idx_facts t
  show V c main_v34 (((cfg1.win 4).blk t).view.emb (ix2 (0 : Fin 1) q)) = V c main_v34 (ix2 (0 : Fin 1) q)
  refine congrArg (V c main_v34) (funext fun a => Fin.ext ?_)
  match a with
  | ⟨0, _⟩ => show win1_4.index t (0 : Fin 2) * 1 + 1 * 0 = 0; omega
  | ⟨1, _⟩ => show win1_4.index t (1 : Fin 2) * 7 + 1 * q.val = q.val; omega

/-- Window 5's block (a one-row array, the same at every point) read at `(0, q)`: the array's entry there. -/
theorem out_blk5 (c : Dev nD) (t : Fin cfg1.N) (q : Fin 7) :
    iblk1 V c 5 t (ix2 (0 : Fin 1) q) = V c main_v35 (ix2 (0 : Fin 1) q) := by
  obtain ⟨e00, e01, e10, e11, e20, e21, e30, e31, e40, e41, e50, e51, e60, e61, e70, e71⟩ := out_idx_facts t
  show V c main_v35 (((cfg1.win 5).blk t).view.emb (ix2 (0 : Fin 1) q)) = V c main_v35 (ix2 (0 : Fin 1) q)
  refine congrArg (V c main_v35) (funext fun a => Fin.ext ?_)
  match a with
  | ⟨0, _⟩ => show win1_5.index t (0 : Fin 2) * 1 + 1 * 0 = 0; omega
  | ⟨1, _⟩ => show win1_5.index t (1 : Fin 2) * 7 + 1 * q.val = q.val; omega

/-- Window 6's block (a one-row array, the same at every point) read at `(0, q)`: the array's entry there. -/
theorem out_blk6 (c : Dev nD) (t : Fin cfg1.N) (q : Fin 7) :
    iblk1 V c 6 t (ix2 (0 : Fin 1) q) = V c main_v36 (ix2 (0 : Fin 1) q) := by
  obtain ⟨e00, e01, e10, e11, e20, e21, e30, e31, e40, e41, e50, e51, e60, e61, e70, e71⟩ := out_idx_facts t
  show V c main_v36 (((cfg1.win 6).blk t).view.emb (ix2 (0 : Fin 1) q)) = V c main_v36 (ix2 (0 : Fin 1) q)
  refine congrArg (V c main_v36) (funext fun a => Fin.ext ?_)
  match a with
  | ⟨0, _⟩ => show win1_6.index t (0 : Fin 2) * 1 + 1 * 0 = 0; omega
  | ⟨1, _⟩ => show win1_6.index t (1 : Fin 2) * 7 + 1 * q.val = q.val; omega

/-- Where entry `(p, q)` of point `t`'s result block sits in the result array. -/
theorem out_out_emb (t : Fin cfg1.N) (p : Fin 5000) (q : Fin 7) :
    ((cfg1.win 7).blk t).view.emb (ix2 p q) = ix2 (out_row t p) q := by
  obtain ⟨e00, e01, e10, e11, e20, e21, e30, e31, e40, e41, e50, e51, e60, e61, e70, e71⟩ := out_idx_facts t
  refine funext fun a => Fin.ext ?_
  match a with
  | ⟨0, _⟩ => show win1_7.index t (0 : Fin 2) * 5000 + 1 * p.val = t.val * 5000 + p.val; omega
  | ⟨1, _⟩ => show win1_7.index t (1 : Fin 2) * 7 + 1 * q.val = q.val; omega

/-- The dense stage of the arrays as the region finds them: its features, its weights, and the five one-row arrays
    read as vectors. -/
def out_of (c : Dev nD) : S100000x7.Idx → EReal :=
  logits (V c main_v31) (V c main_arg8) (fun j => V c main_v32 (ix2 (0 : Fin 1) (j 0))) (fun j => V c main_v33 (ix2 (0 : Fin 1) (j 0)))
    (fun j => V c main_v34 (ix2 (0 : Fin 1) (j 0))) (fun j => V c main_v35 (ix2 (0 : Fin 1) (j 0))) (fun j => V c main_v36 (ix2 (0 : Fin 1) (j 0)))

/-- WHAT POINT `t` WRITES BACK is block `t` of the dense stage of the arrays as the region finds them. -/
theorem out_flushed (c : Dev nD) (t : Fin cfg1.N) :
    (dat1 V c).flushed 7 t = ((cfg1.win 7).blk t).view.read (Elt Ideal) (out_of V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x7) hz, View.ld_unit_zero (S := S1x7) hz]
  refine funext fun (j : S5000x7.Idx) => ?_
  obtain ⟨p, q, rfl⟩ : ∃ (p : Fin 5000) (q : Fin 7), j = ix2 p q := ⟨j 0, j 1, eq_ix2 j⟩
  show k1_pay1 (F := Ideal) (iblk1 V c 0 t) (iblk1 V c 1 t) (iblk1 V c 2 t) (iblk1 V c 6 t) (iblk1 V c 3 t) (iblk1 V c 5 t) (iblk1 V c 4 t) (ix2 p q)
      = out_of V c (((cfg1.win 7).blk t).view.emb (ix2 p q))
  rw [out_out_emb, logit_pay_at]
  simp only [out_blk0, out_blk1, out_blk2, out_blk3, out_blk4, out_blk5, out_blk6]
  rfl

/-- An index of the result array is in point `t`'s block iff each coordinate is in the block's range on its axis. -/
theorem out_mem_blk (t : Fin cfg1.N) (i : S100000x7.Idx) :
    i ∈ ((cfg1.win 7).blk t).view.set ↔ ∀ a : Fin 2, win1_7.index t a * S5000x7.size a ≤ (i a).val ∧ (i a).val < win1_7.index t a * S5000x7.size a + S5000x7.size a := by
  show i ∈ ((View.whole main_v37).slice (win1_7.rect t)).set ↔ _
  rw [View.set_slice_whole, Rect.mem_set_unit]
  exact Iff.rfl

/-- Every row of the result lies in the block of the point numbered by the row's quotient by 5000. -/
theorem out_cover (i : S100000x7.Idx) : ∃ t : Fin cfg1.N, (cfg1.win 7).flush t = true ∧ i ∈ ((cfg1.win 7).blk t).view.set := by
  have hi0 : (i 0).val < 100000 := (i 0).isLt
  have hi1 : (i 1).val < 7 := (i 1).isLt
  have hN : cfg1.N = 20 := N_1
  have hlt : (i 0).val / 5000 < cfg1.N := by rw [hN]; omega
  obtain ⟨e00, e01, e10, e11, e20, e21, e30, e31, e40, e41, e50, e51, e60, e61, e70, e71⟩ := out_idx_facts ⟨(i 0).val / 5000, hlt⟩
  refine ⟨⟨(i 0).val / 5000, hlt⟩, flush1_7 _, ?_⟩
  rw [out_mem_blk]
  intro a
  match a with
  | ⟨0, _⟩ =>
    show win1_7.index ⟨(i 0).val / 5000, hlt⟩ (0 : Fin 2) * 5000 ≤ (i 0).val ∧ (i 0).val < win1_7.index ⟨(i 0).val / 5000, hlt⟩ (0 : Fin 2) * 5000 + 5000
    have e : win1_7.index ⟨(i 0).val / 5000, hlt⟩ (0 : Fin 2) = (i 0).val / 5000 := e70
    omega
  | ⟨1, _⟩ =>
    show win1_7.index ⟨(i 0).val / 5000, hlt⟩ (1 : Fin 2) * 7 ≤ (i 1).val ∧ (i 1).val < win1_7.index ⟨(i 0).val / 5000, hlt⟩ (1 : Fin 2) * 7 + 7
    omega

/-- THE RESULT ARRAY after the region: the dense stage of the arrays as the region finds them. -/
theorem out_final (c : Dev nD) : (dat1 V c).arrAt 7 cfg1.N = out_of V c :=
  (dat1 V c).arrAt_eq_of_cover 7 (out_of V c) (fun t _ => out_flushed V c t) (out_cover)

end Region1

end Cert.KernelIdeal.GcnValue

end
-- ==== Proof.KernelRun.lean ====
/-
  The kernel program's result as one function of its arguments, and its run.

  The program is four segments: a stretch of host operations (the aggregation of the node features along the edges,
  and five reshapes of the first layer's vectors to one-row arrays), the first region, a second stretch (the same
  aggregation of the first region's result, five reshapes of the second layer's vectors), the second region.  Reading the
  fold of the buffers' contents through the segments from the end: the result buffer is the second region's
  result array, which is the output dense stage of what that region finds; what it finds is the aggregation of the
  first region's result array (a host stretch read operation by operation), the weights as launched and the reshaped
  vectors, which read as vectors are the arguments; and the first region's result array is the hidden dense stage of the
  aggregation of the node features.  The aggregation is the reference's, operation for operation, and is never opened.
-/
import proofs.«160998_j15092515078148_1_alg».proof.Proof.FrameHeld
import proofs.«160998_j15092515078148_1_alg».proof.Proof.KernelBlocks
import proofs.«160998_j15092515078148_1_alg».proof.Proof.RefValue
import Idealize.ShloMosaic.Lib.StableHlo.Run
import Idealize.ShloMosaic.Lib.ValueLayout

set_option maxRecDepth 16384

noncomputable section

namespace Cert.KernelIdeal.GcnValue

open Cert.KernelIdeal Cert.KernelIdeal.Gen Idealize.ShloMosaic Idealize.ShloMosaic.TcCoe Idealize.ShloMosaic.ValueIdx Idealize.SL.Sem
  Idealize.ShloMosaic.StableHlo Cert.Gcn

variable (m : (ℓ : Loc nD τ sig) → Buf (Elt Ideal) ℓ) (ρ : Dev nD → PrngReg)

/-! ## What the first region finds -/

set_option maxHeartbeats 20000000 in
/-- The features the first region finds are the aggregation of the node features. -/
theorem entry0_agg (c : Dev nD) :
    V1 m ρ c main_v12 = Cert.ReferenceIdeal.GcnValue.spmm (m ((c : Thread nD τ).loc main_arg0)) (m ((c : Thread nD τ).loc main_arg1)) (m ((c : Thread nD τ).loc main_arg14)) (m ((c : Thread nD τ).loc main_arg15)) := by
  show StableHlo.after hostOps0 (W0 m ρ c) (Proc.devRef .tc main_v12) = _
  after_results
  unfold Cert.ReferenceIdeal.GcnValue.spmm
  rfl

/-- The weights the first region finds are the argument. -/
theorem entry0_w (c : Dev nD) : V1 m ρ c main_arg2 = m ((c : Thread nD τ).loc main_arg2) := by
  show StableHlo.after hostOps0 (W0 m ρ c) (Proc.devRef .tc main_arg2) = _
  after_results

/-- The one-row array `main_v13` region 0 finds, read as a vector, is argument 3. -/
theorem entry0_row13 (c : Dev nD) :
    (fun j : S128.Idx => (V1 m ρ c main_v13 (ix2 (0 : Fin 1) (j 0)) : EReal)) = m ((c : Thread nD τ).loc main_arg3) := by
  have e : V1 m ρ c main_v13 = shapeCast S1x128 (m ((c : Thread nD τ).loc main_arg3)) shapeCasts_S128_S1x128 := by
    show StableHlo.after hostOps0 (W0 m ρ c) (Proc.devRef .tc main_v13) = _
    after_results
    rfl
  funext j
  rw [e]
  exact (shapeCast_a_1a_apply (m ((c : Thread nD τ).loc main_arg3)) shapeCasts_S128_S1x128 (0 : Fin 1) (j 0)).trans
    (congrArg (m ((c : Thread nD τ).loc main_arg3)) (eq_ix1 j).symm)

/-- The one-row array `main_v14` region 0 finds, read as a vector, is argument 4. -/
theorem entry0_row14 (c : Dev nD) :
    (fun j : S128.Idx => (V1 m ρ c main_v14 (ix2 (0 : Fin 1) (j 0)) : EReal)) = m ((c : Thread nD τ).loc main_arg4) := by
  have e : V1 m ρ c main_v14 = shapeCast S1x128 (m ((c : Thread nD τ).loc main_arg4)) shapeCasts_S128_S1x128 := by
    show StableHlo.after hostOps0 (W0 m ρ c) (Proc.devRef .tc main_v14) = _
    after_results
    rfl
  funext j
  rw [e]
  exact (shapeCast_a_1a_apply (m ((c : Thread nD τ).loc main_arg4)) shapeCasts_S128_S1x128 (0 : Fin 1) (j 0)).trans
    (congrArg (m ((c : Thread nD τ).loc main_arg4)) (eq_ix1 j).symm)

/-- The one-row array `main_v15` region 0 finds, read as a vector, is argument 5. -/
theorem entry0_row15 (c : Dev nD) :
    (fun j : S128.Idx => (V1 m ρ c main_v15 (ix2 (0 : Fin 1) (j 0)) : EReal)) = m ((c : Thread nD τ).loc main_arg5) := by
  have e : V1 m ρ c main_v15 = shapeCast S1x128 (m ((c : Thread nD τ).loc main_arg5)) shapeCasts_S128_S1x128 := by
    show StableHlo.after hostOps0 (W0 m ρ c) (Proc.devRef .tc main_v15) = _
    after_results
    rfl
  funext j
  rw [e]
  exact (shapeCast_a_1a_apply (m ((c : Thread nD τ).loc main_arg5)) shapeCasts_S128_S1x128 (0 : Fin 1) (j 0)).trans
    (congrArg (m ((c : Thread nD τ).loc main_arg5)) (eq_ix1 j).symm)

/-- The one-row array `main_v16` region 0 finds, read as a vector, is argument 6. -/
theorem entry0_row16 (c : Dev nD) :
    (fun j : S128.Idx => (V1 m ρ c main_v16 (ix2 (0 : Fin 1) (j 0)) : EReal)) = m ((c : Thread nD τ).loc main_arg6) := by
  have e : V1 m ρ c main_v16 = shapeCast S1x128 (m ((c : Thread nD τ).loc main_arg6)) shapeCasts_S128_S1x128 := by
    show StableHlo.after hostOps0 (W0 m ρ c) (Proc.devRef .tc main_v16) = _
    after_results
    rfl
  funext j
  rw [e]
  exact (shapeCast_a_1a_apply (m ((c : Thread nD τ).loc main_arg6)) shapeCasts_S128_S1x128 (0 : Fin 1) (j 0)).trans
    (congrArg (m ((c : Thread nD τ).loc main_arg6)) (eq_ix1 j).symm)

/-- The one-row array `main_v17` region 0 finds, read as a vector, is argument 7. -/
theorem entry0_row17 (c : Dev nD) :
    (fun j : S128.Idx => (V1 m ρ c main_v17 (ix2 (0 : Fin 1) (j 0)) : EReal)) = m ((c : Thread nD τ).loc main_arg7) := by
  have e : V1 m ρ c main_v17 = shapeCast S1x128 (m ((c : Thread nD τ).loc main_arg7)) shapeCasts_S128_S1x128 := by
    show StableHlo.after hostOps0 (W0 m ρ c) (Proc.devRef .tc main_v17) = _
    after_results
    rfl
  funext j
  rw [e]
  exact (shapeCast_a_1a_apply (m ((c : Thread nD τ).loc main_arg7)) shapeCasts_S128_S1x128 (0 : Fin 1) (j 0)).trans
    (congrArg (m ((c : Thread nD τ).loc main_arg7)) (eq_ix1 j).symm)

/-- The first region's result array: the hidden stage of the aggregated node features and the first layer's arguments. -/
theorem hidden_array (c : Dev nD) :
    (dat0 (V1 m ρ) c).arrAt 7 cfg0.N
      = hidden (Cert.ReferenceIdeal.GcnValue.spmm (m ((c : Thread nD τ).loc main_arg0)) (m ((c : Thread nD τ).loc main_arg1)) (m ((c : Thread nD τ).loc main_arg14)) (m ((c : Thread nD τ).loc main_arg15)))
          (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [hid_final]
  unfold hid_of
  rw [entry0_agg, entry0_w, entry0_row13, entry0_row14, entry0_row15, entry0_row16, entry0_row17]

/-! ## Between the regions: the arguments are as launched -/

theorem mid_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)

theorem mid_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)

theorem mid_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)

theorem mid_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)

theorem mid_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results)

theorem mid_arg12 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results)

theorem mid_arg13 (c : Dev nD) : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results)

theorem mid_arg14 (c : Dev nD) : W2 m ρ c (Proc.devRef .tc main_arg14) = m ((c : Thread nD τ).loc main_arg14) :=
  (W2_of_ne m ρ c main_arg14 (by decide)).trans (by
    show StableHlo.after hostOps0 (W0 m ρ c) (Proc.devRef .tc main_arg14) = _
    after_results)

theorem mid_arg15 (c : Dev nD) : W2 m ρ c (Proc.devRef .tc main_arg15) = m ((c : Thread nD τ).loc main_arg15) :=
  (W2_of_ne m ρ c main_arg15 (by decide)).trans (by
    show StableHlo.after hostOps0 (W0 m ρ c) (Proc.devRef .tc main_arg15) = _
    after_results)

/-! ## What the second region finds -/

set_option maxHeartbeats 20000000 in
/-- The features the second region finds are the aggregation of the first region's result array. -/
theorem entry1_agg (c : Dev nD) :
    V3 m ρ c main_v31 = Cert.ReferenceIdeal.GcnValue.spmm ((dat0 (V1 m ρ) c).arrAt 7 cfg0.N) (m ((c : Thread nD τ).loc main_arg1)) (m ((c : Thread nD τ).loc main_arg14)) (m ((c : Thread nD τ).loc main_arg15)) := by
  have e : V3 m ρ c main_v31 = Cert.ReferenceIdeal.GcnValue.spmm (W2 m ρ c (Proc.devRef .tc main_v18)) (W2 m ρ c (Proc.devRef .tc main_arg1))
      (W2 m ρ c (Proc.devRef .tc main_arg14)) (W2 m ρ c (Proc.devRef .tc main_arg15)) := by
    show StableHlo.after hostOps1 (W2 m ρ c) (Proc.devRef .tc main_v31) = _
    after_results
    unfold Cert.ReferenceIdeal.GcnValue.spmm
    rfl
  rw [e, mid_arg1, mid_arg14, mid_arg15]
  exact congrArg (fun x => Cert.ReferenceIdeal.GcnValue.spmm x (m ((c : Thread nD τ).loc main_arg1)) (m ((c : Thread nD τ).loc main_arg14)) (m ((c : Thread nD τ).loc main_arg15))) (W2_arr m ρ c 7)

/-- The weights the second region finds are the argument. -/
theorem entry1_w (c : Dev nD) : V3 m ρ c main_arg8 = m ((c : Thread nD τ).loc main_arg8) := by
  have e : V3 m ρ c main_arg8 = W2 m ρ c (Proc.devRef .tc main_arg8) := by
    show StableHlo.after hostOps1 (W2 m ρ c) (Proc.devRef .tc main_arg8) = _
    after_results
  rw [e, mid_arg8]

/-- The one-row array `main_v32` region 1 finds, read as a vector, is argument 9. -/
theorem entry1_row32 (c : Dev nD) :
    (fun j : S7.Idx => (V3 m ρ c main_v32 (ix2 (0 : Fin 1) (j 0)) : EReal)) = m ((c : Thread nD τ).loc main_arg9) := by
  have e : V3 m ρ c main_v32 = shapeCast S1x7 (W2 m ρ c (Proc.devRef .tc main_arg9)) shapeCasts_S7_S1x7 := by
    show StableHlo.after hostOps1 (W2 m ρ c) (Proc.devRef .tc main_v32) = _
    after_results
    rfl
  funext j
  rw [e]
  refine (shapeCast_a_1a_apply (W2 m ρ c (Proc.devRef .tc main_arg9)) shapeCasts_S7_S1x7 (0 : Fin 1) (j 0)).trans ?_
  rw [mid_arg9]
  exact congrArg (m ((c : Thread nD τ).loc main_arg9)) (eq_ix1 j).symm

/-- The one-row array `main_v33` region 1 finds, read as a vector, is argument 10. -/
theorem entry1_row33 (c : Dev nD) :
    (fun j : S7.Idx => (V3 m ρ c main_v33 (ix2 (0 : Fin 1) (j 0)) : EReal)) = m ((c : Thread nD τ).loc main_arg10) := by
  have e : V3 m ρ c main_v33 = shapeCast S1x7 (W2 m ρ c (Proc.devRef .tc main_arg10)) shapeCasts_S7_S1x7 := by
    show StableHlo.after hostOps1 (W2 m ρ c) (Proc.devRef .tc main_v33) = _
    after_results
    rfl
  funext j
  rw [e]
  refine (shapeCast_a_1a_apply (W2 m ρ c (Proc.devRef .tc main_arg10)) shapeCasts_S7_S1x7 (0 : Fin 1) (j 0)).trans ?_
  rw [mid_arg10]
  exact congrArg (m ((c : Thread nD τ).loc main_arg10)) (eq_ix1 j).symm

/-- The one-row array `main_v34` region 1 finds, read as a vector, is argument 11. -/
theorem entry1_row34 (c : Dev nD) :
    (fun j : S7.Idx => (V3 m ρ c main_v34 (ix2 (0 : Fin 1) (j 0)) : EReal)) = m ((c : Thread nD τ).loc main_arg11) := by
  have e : V3 m ρ c main_v34 = shapeCast S1x7 (W2 m ρ c (Proc.devRef .tc main_arg11)) shapeCasts_S7_S1x7 := by
    show StableHlo.after hostOps1 (W2 m ρ c) (Proc.devRef .tc main_v34) = _
    after_results
    rfl
  funext j
  rw [e]
  refine (shapeCast_a_1a_apply (W2 m ρ c (Proc.devRef .tc main_arg11)) shapeCasts_S7_S1x7 (0 : Fin 1) (j 0)).trans ?_
  rw [mid_arg11]
  exact congrArg (m ((c : Thread nD τ).loc main_arg11)) (eq_ix1 j).symm

/-- The one-row array `main_v35` region 1 finds, read as a vector, is argument 12. -/
theorem entry1_row35 (c : Dev nD) :
    (fun j : S7.Idx => (V3 m ρ c main_v35 (ix2 (0 : Fin 1) (j 0)) : EReal)) = m ((c : Thread nD τ).loc main_arg12) := by
  have e : V3 m ρ c main_v35 = shapeCast S1x7 (W2 m ρ c (Proc.devRef .tc main_arg12)) shapeCasts_S7_S1x7 := by
    show StableHlo.after hostOps1 (W2 m ρ c) (Proc.devRef .tc main_v35) = _
    after_results
    rfl
  funext j
  rw [e]
  refine (shapeCast_a_1a_apply (W2 m ρ c (Proc.devRef .tc main_arg12)) shapeCasts_S7_S1x7 (0 : Fin 1) (j 0)).trans ?_
  rw [mid_arg12]
  exact congrArg (m ((c : Thread nD τ).loc main_arg12)) (eq_ix1 j).symm

/-- The one-row array `main_v36` region 1 finds, read as a vector, is argument 13. -/
theorem entry1_row36 (c : Dev nD) :
    (fun j : S7.Idx => (V3 m ρ c main_v36 (ix2 (0 : Fin 1) (j 0)) : EReal)) = m ((c : Thread nD τ).loc main_arg13) := by
  have e : V3 m ρ c main_v36 = shapeCast S1x7 (W2 m ρ c (Proc.devRef .tc main_arg13)) shapeCasts_S7_S1x7 := by
    show StableHlo.after hostOps1 (W2 m ρ c) (Proc.devRef .tc main_v36) = _
    after_results
    rfl
  funext j
  rw [e]
  refine (shapeCast_a_1a_apply (W2 m ρ c (Proc.devRef .tc main_arg13)) shapeCasts_S7_S1x7 (0 : Fin 1) (j 0)).trans ?_
  rw [mid_arg13]
  exact congrArg (m ((c : Thread nD τ).loc main_arg13)) (eq_ix1 j).symm

/-! ## The result -/

/-- The program's result as one function of its arguments: aggregate, hidden stage, aggregate, output stage. -/
def result (c : Dev nD) : S100000x7.Idx → EReal :=
  logits (Cert.ReferenceIdeal.GcnValue.spmm
      (hidden (Cert.ReferenceIdeal.GcnValue.spmm (m ((c : Thread nD τ).loc main_arg0)) (m ((c : Thread nD τ).loc main_arg1)) (m ((c : Thread nD τ).loc main_arg14)) (m ((c : Thread nD τ).loc main_arg15)))
        (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
      (m ((c : Thread nD τ).loc main_arg1)) (m ((c : Thread nD τ).loc main_arg14)) (m ((c : Thread nD τ).loc main_arg15)))
    (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The result buffer at the last boundary is that function of the arguments. -/
theorem result_array (c : Dev nD) : W4 m ρ c (Proc.devRef .tc main_v37) = result m c := by
  refine (W4_arr m ρ c 7).trans ?_
  rw [out_final]
  unfold out_of result
  rw [entry1_agg, entry1_w, entry1_row32, entry1_row33, entry1_row34, entry1_row35, entry1_row36, hidden_array]

/-- THE RUN: every weakly fair execution terminates, nothing faulting, with the result buffer at `result` of the
    arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v37) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run (defs (F := Ideal)) _ _).mono (fun r h c =>
    ⟨(h c _ (mem_uc main_v37 (by decide))).trans (result_array m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c),
      (h c _ (mem_uc main_arg15 (by decide))).trans (W4_main_arg15 m ρ c)⟩)
    (Cert.KernelIdeal.GenP.run_held m ρ)

end Cert.KernelIdeal.GcnValue

end
-- ==== Proof.lean ====
/-
  The claims: a two-round graph convolution whose dense stages run as two tiled kernels, against the
  same network written with plain array operations.

  Both programs aggregate the node features along the edges, apply a dense stage (a matrix product, a bias, an
  inference-mode batch normalisation, a clamp at zero), aggregate again and apply a second dense stage (no clamp).
  On the extended reals the two programs are one function of their arguments, `GcnValue.result`: the aggregation
  is the same host operations on both sides; a dense stage is `Cert.Gcn.hidden` / `Cert.Gcn.logits` on both
  sides — the kernel's blocks of 5000 rows tile the array, its matrix product into a zero accumulator and the
  host's `dot_general` are the same sum over the contracted axis, narrowing the product's operands to bf16 is the
  identity on the extended reals, and the grouping of the normalisation's products and sums is the same.  No
  law of the extended reals that could fail at an infinity is used, so the precondition (every float input
  finite) is never opened.  The idealization rewrote nothing, so `preserves` has no conjunct.
-/
import proofs.«160998_j15092515078148_1_alg».proof.Defs
import proofs.«160998_j15092515078148_1_alg».proof.Proof.Gen.Kernel
import proofs.«160998_j15092515078148_1_alg».proof.Proof.Gen.Kernel.Frame
import proofs.«160998_j15092515078148_1_alg».proof.Proof.Gen.KernelIdeal
import proofs.«160998_j15092515078148_1_alg».proof.Proof.Gen.KernelIdeal.Frame
import proofs.«160998_j15092515078148_1_alg».proof.Proof.Gen.ReferenceIdeal
import proofs.«160998_j15092515078148_1_alg».proof.Proof.Gen.Pre_finite_inputs
import proofs.«160998_j15092515078148_1_alg».proof.Proof.Gen.ReferenceIdeal.Run
import proofs.«160998_j15092515078148_1_alg».proof.Proof.Gen.ReferenceIdeal.Read
import proofs.«160998_j15092515078148_1_alg».proof.Proof.RefValue
import proofs.«160998_j15092515078148_1_alg».proof.Proof.KernelRun
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the same result: `GcnValue.result` of arguments that agree. -/
theorem algebraic : Cert.algebraic_KernelIdeal_ReferenceIdeal := by
  intro m ρ m' ρ' _ hagree
  refine ⟨fun c => Cert.KernelIdeal.GcnValue.result m c, Cert.KernelIdeal.GcnValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.Read.val_main_v64_eq, Cert.ReferenceIdeal.GcnValue.result_ref,
    h0, h1, h2, h3, h4, h5, h6, h7, h8, h9, h10, h11, h12, h13, h14, h15]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
